-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S2000x128 : Shape := ⟨2, ![2000, 128]⟩
abbrev S800000x128 : Shape := ⟨2, ![800000, 128]⟩
abbrev S50000x1 : Shape := ⟨2, ![50000, 1]⟩
abbrev S1x128 : Shape := ⟨2, ![1, 128]⟩
abbrev S2000x1 : Shape := ⟨2, ![2000, 1]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 80
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S50000, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x1, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S1x128, .f32⟩
  | .hbm, ⟨59, _⟩ => ⟨S50000x128, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S800000x1, .f32⟩
  | .hbm, ⟨71, _⟩ => ⟨S800000x64, .f32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S50000x1, .f32⟩
  | .hbm, ⟨78, _⟩ => ⟨S1x64, .f32⟩
  | .hbm, ⟨79, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  broadcasts_S1x64_S2000x64 : S1x64.Broadcasts S2000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x64, .f32⟩
  | .hbm, ⟨68, _⟩ => ⟨S1x800000, .i32⟩
  | .hbm, ⟨69, _⟩ => ⟨S800000, .i32⟩
  | .hbm, ⟨70, _⟩ => ⟨S1x800000, .i32⟩
  | .hbm, ⟨71, _⟩ => ⟨S800000, .i32⟩
  | .hbm, ⟨72, _⟩ => ⟨S_, .f32⟩
  | .hbm, ⟨73, _⟩ => ⟨S800000, .f32⟩
  | .hbm, ⟨74, _⟩ => ⟨S_, .f32⟩
  | .hbm, ⟨75, _⟩ => ⟨S50000, .f32⟩
  | .hbm, ⟨76, _⟩ => ⟨S800000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000, .f32⟩
  | .hbm, ⟨100, _⟩ => ⟨S800000, .f32⟩
  | .hbm, ⟨101, _⟩ => ⟨S_, .i32⟩
  | .hbm, ⟨102, _⟩ => ⟨S800000, .i32⟩
  | .hbm, ⟨103, _⟩ => ⟨S800000, .i1⟩
  | .hbm, ⟨104, _⟩ => ⟨S_, .i32⟩
  | .hbm, ⟨105, _⟩ => ⟨S800000, .i32⟩
  | .hbm, ⟨106, _⟩ => ⟨S800000, .i32⟩
  | .hbm, ⟨107, _⟩ => ⟨S800000, .i32⟩
  | .hbm, ⟨108, _⟩ => ⟨S800000x1, .i32⟩
  | .hbm, ⟨109, _⟩ => ⟨S800000x64, .f32⟩
  | .hbm, ⟨110, _⟩ => ⟨S800000x1, .f32⟩
  | .hbm, ⟨111, _⟩ => ⟨S800000x64, .f32⟩
  | .hbm, ⟨112, _⟩ => ⟨S800000x64, .f32⟩
  | .hbm, ⟨113, _⟩ => ⟨S_, .f32⟩
  | .hbm, ⟨114, _⟩ => ⟨S50000x64, .f32⟩
  | .hbm, ⟨115, _⟩ => ⟨S800000x1, .i32⟩
  | .hbm, ⟨116, _⟩ => ⟨S50000x64, .f32⟩
  | .hbm, ⟨117, _⟩ => ⟨S50000, .f32⟩
  | .hbm, ⟨118, _⟩ => ⟨S50000x1, .f32⟩
  | .hbm, ⟨119, _⟩ => ⟨S50000x64, .f32⟩
  | .hbm, ⟨120, _⟩ => ⟨S50000x64, .f32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | .hbm, ⟨125, _⟩ => ⟨S_, .f32⟩
  | .hbm, ⟨126, _⟩ => ⟨S50000x64, .f32⟩
  | .hbm, ⟨127, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_call1_cst : Ref sig .tc := ⟨.hbm, 125, rfl⟩
abbrev main_call1_v0 : Ref sig .tc := ⟨.hbm, 126, rfl⟩
abbrev main_v97 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The device program's run, with its result named.

  The program is seven stretches in a row: host operations, the first product, host operations, the first
  combination, the second product, host operations, the second combination. The contents of every buffer at
  each boundary are a fold from the launch memory (a host stretch rewrites the buffers its operations write, a
  launched region rewrites the arrays of its windows by its write-backs); after the last boundary every unscoped
  buffer holds that fold's value. Here the fold is read at the RESULT buffer as well as at the six arguments:
  the result array ends at what the last region's write-backs leave in its output window's array.
-/
import proofs.«132799_j34540126994448_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the device program terminates without a fault; the result buffer ends at the
    last boundary's contents and the six argument arrays end as launched. -/
theorem run_last : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Result

end
-- ==== Proof.LibGraphLayer.lean ====
/-
  One layer of a graph convolution over the extended reals, as whole-array functions given entry by entry.

  A layer first projects every node's feature row by a weight matrix (`matProd`: entry `(r, q)` is the sum over the
  contracted position `k` of `A[r, k] · B[k, q]`), then combines, node by node, the aggregated neighbour messages
  with the node's own projected row scaled by a per-node factor, adds a bias row and rectifies
  (`nodeCombine`: entry `(r, q)` is `max (agg[r, q] + h[r, q] · s[r] + bias[q]) z`). The per-node factor comes as a
  one-column array `[a, 1]`, the bias as a one-row array `[1, b]`. Also here: the keep-dims cast of a vector to a column.
-/
import Idealize.ShloMosaic.PureOps.Ideal
import Idealize.ShloMosaic.Lib.ValueIdx
import Idealize.ShloMosaic.Lib.ValueLayout
import Idealize.ShloMosaic.Lib.Pipeline.Value

noncomputable section

namespace Cert.GraphLayer

open Idealize.ShloMosaic Idealize.ShloMosaic.ValueIdx

/-- The product of an `[a, K]` array and a `[K, b]` array: entry `(r, q)` is `∑ k, A[r, k] · B[k, q]`. -/
def matProd {a K b : ℕ} (A : (⟨2, ![a, K]⟩ : Shape).Idx → EReal) (B : (⟨2, ![K, b]⟩ : Shape).Idx → EReal) :
    (⟨2, ![a, b]⟩ : Shape).Idx → EReal :=
  fun i => ∑ k : Fin K, A (ix2 (i 0) k) * B (ix2 k (i 1))

theorem matProd_ix2 {a K b : ℕ} (A : (⟨2, ![a, K]⟩ : Shape).Idx → EReal) (B : (⟨2, ![K, b]⟩ : Shape).Idx → EReal)
    (r : Fin a) (q : Fin b) : matProd A B (ix2 r q) = ∑ k : Fin K, A (ix2 r k) * B (ix2 k q) := rfl

/-- The combination at every node: the aggregated messages plus the node's own row scaled by the node's factor, plus
    the bias row, rectified at `z`. -/
def nodeCombine {a b : ℕ} (z : EReal) (agg h : (⟨2, ![a, b]⟩ : Shape).Idx → EReal) (s : (⟨2, ![a, 1]⟩ : Shape).Idx → EReal)
    (bias : (⟨2, ![1, b]⟩ : Shape).Idx → EReal) : (⟨2, ![a, b]⟩ : Shape).Idx → EReal :=
  fun i => max ((agg i + h i * s (ix2 (i 0) (0 : Fin 1))) + bias (ix2 (0 : Fin 1) (i 1))) z

theorem nodeCombine_ix2 {a b : ℕ} (z : EReal) (agg h : (⟨2, ![a, b]⟩ : Shape).Idx → EReal) (s : (⟨2, ![a, 1]⟩ : Shape).Idx → EReal)
    (bias : (⟨2, ![1, b]⟩ : Shape).Idx → EReal) (r : Fin a) (q : Fin b) :
    nodeCombine z agg h s bias (ix2 r q)
      = max ((agg (ix2 r q) + h (ix2 r q) * s (ix2 r (0 : Fin 1))) + bias (ix2 (0 : Fin 1) q)) z := rfl

/-- The combination at an index whose column coordinate is named: the bias entry may be read at that name. -/
theorem nodeCombine_apply_of_col {a b : ℕ} (z : EReal) (agg h : (⟨2, ![a, b]⟩ : Shape).Idx → EReal) (s : (⟨2, ![a, 1]⟩ : Shape).Idx → EReal)
    (bias : (⟨2, ![1, b]⟩ : Shape).Idx → EReal) (i : (⟨2, ![a, b]⟩ : Shape).Idx) (q : Fin b) (hq : q = i 1) :
    max ((agg i + h i * s (ix2 (i 0) (0 : Fin 1))) + bias (ix2 (0 : Fin 1) q)) z = nodeCombine z agg h s bias i := by
  subst hq; rfl

/-- An `[a]` array cast to a column `[a, 1]` reads, at `(r, u)`, the operand at `r`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.GraphLayer

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.Products.lean ====
/-
  The two dense projections of the network, each launched over 25 blocks of 2000 rows: every block of the result is the
  block of rows of the left operand times the whole right operand, so the array the region leaves is the product of
  the two arrays it was entered with, entry by entry the sum over the contracted position.
-/
import proofs.«132799_j34540126994448_1_alg».proof.Proof.Gen.KernelIdeal.Frame
import proofs.«132799_j34540126994448_1_alg».proof.Proof.LibRowLayers
import proofs.«132799_j34540126994448_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws
import proofs.«132799_j34540126994448_1_alg».proof.Proof.LibGraphLayer
set_option maxRecDepth 16384

noncomputable section

namespace Cert.KernelIdeal.Products

open Cert.KernelIdeal Cert.KernelIdeal.Gen
open Idealize.ShloMosaic Idealize.ShloMosaic.TcCoe Idealize.ShloMosaic.ValueIdx Idealize.SL.Sem
open Idealize.ShloMosaic.Pipeline (Dat)

open Cert.RowLayers Cert.GraphLayer

variable (V : (c : Dev nD) → (b : Ref sig .tc) → Buf (Elt Ideal) ((c : Thread nD τ).loc b))

theorem hz : (![0, 0] : Fin 2 → Nat) = fun _ => 0 := funext fun a => by fin_cases a <;> rfl

/-! ## The product launched as region 0: [50000, 128] × [128, 128] in 25 blocks of 2000 rows -/

/-- The block index maps over the 25 grid points: the left operand's and the result's blocks move down the rows with the
    point, the right operand's block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `2000 t … 2000 t + 1999` of its array. -/
theorem lhsBlock0 (c : Dev nD) (t : Fin cfg0.N) (y : S2000x128.Idx) (k : S50000x128.Idx)
    (h0 : (k 0).val = 2000 * t.val + (y 0).val) (h1 : (k 1).val = (y 1).val) :
    (iblk0 V c 0 t : Vec Ideal S2000x128 .f32) y = (V c main_arg0 : S50000x128.Idx → EReal) k := by
  obtain ⟨e0, e1, -⟩ := idx0 t
  unfold iblk0
  rw [View.read_apply]
  show V c main_arg0 _ = V c main_arg0 _
  congr 1
  funext a; apply Fin.ext
  match a with
  | ⟨0, _⟩ => show win0_0.index t (0 : Fin 2) * 2000 + 1 * (y 0).val = (k 0).val; rw [e0, h0]; omega
  | ⟨1, _⟩ => show win0_0.index t (1 : Fin 2) * 128 + 1 * (y 1).val = (k 1).val; rw [e1, h1]; omega

/-- The right operand's block at every point is its whole array. -/
theorem rhsBlock0 (c : Dev nD) (t : Fin cfg0.N) (y : S128x128.Idx) :
    (iblk0 V c 1 t : Vec Ideal S128x128 .f32) y = (V c main_arg2 : S128x128.Idx → EReal) y := by
  obtain ⟨-, -, e2, e3, -⟩ := idx0 t
  unfold iblk0
  rw [View.read_apply]
  show V c main_arg2 _ = V c main_arg2 _
  congr 1
  funext a; apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- Where an entry of the result's block at point `t` sits in the result array. -/
theorem outEmb0 (t : Fin cfg0.N) (y : S2000x128.Idx) :
    ((((cfg0.win 2).blk t).view.emb y : S50000x128.Idx) 0).val = 2000 * t.val + (y 0).val
    ∧ ((((cfg0.win 2).blk t).view.emb y : S50000x128.Idx) 1).val = (y 1).val := by
  obtain ⟨-, -, -, -, e4, e5⟩ := idx0 t
  constructor
  · show win0_2.index t (0 : Fin 2) * 2000 + 1 * (y 0).val = _; rw [e4]; omega
  · show win0_2.index t (1 : Fin 2) * 128 + 1 * (y 1).val = _; rw [e5]; omega

/-- The dimension numbers of the device's product say "rows times columns". -/
theorem rtc0 : RowsTimesCols dot_S2000x128_S128x128_S2000x128_1_0_0_1_n_n :=
  ⟨rfl, rfl,
   fun j q => by
     unfold DotDims.lhsIdx
     rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
     rfl,
   fun j q => dot_S2000x128_S128x128_S2000x128_1_0_0_1_n_n.lhsIdx_val_of_single rfl j q,
   fun j q => dot_S2000x128_S128x128_S2000x128_1_0_0_1_n_n.rhsIdx_val_of_single rfl j q,
   fun j q => by
     unfold DotDims.rhsIdx
     rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
     rfl⟩

/-- What the body stores at a block entry: the row of the left block times the column of the right one (the changes of
    float format are the identity on extended reals, the accumulator is zero). -/
theorem productEntry0 (x0 : Vec Ideal S2000x128 .f32) (x1 : Vec Ideal S128x128 .f32) (r : Fin 2000) (q : Fin 128) :
    k0_pay1 x0 x1 (ix2 r q) = ∑ k : Fin 128, x0 (ix2 r k) * x1 (ix2 k q) := by
  unfold k0_pay1
  exact congrFun (rowOf_matmul_zero rtc0 none _ _ r) q

/-- WHAT POINT `t` WRITES BACK is block `t` of the whole product of the two arrays as the region finds them. -/
theorem flushed0 (c : Dev nD) (t : Fin cfg0.N) :
    (dat0 (F := Ideal) V c).flushed 2 t = ((cfg0.win 2).blk t).view.read (Elt Ideal)
      (matProd (V c main_arg0 : S50000x128.Idx → EReal) (V c main_arg2 : S128x128.Idx → EReal) : S50000x128.Idx → EReal) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext y
  obtain ⟨r, q, rfl⟩ : ∃ (r : Fin 2000) (q : Fin 128), y = ix2 r q := ⟨y 0, y 1, eq_ix2 y⟩
  obtain ⟨g0, g1⟩ := outEmb0 t (ix2 r q)
  show k0_pay1 (iblk0 V c 0 t) (iblk0 V c 1 t) (ix2 r q)
    = (matProd (V c main_arg0 : S50000x128.Idx → EReal) (V c main_arg2 : S128x128.Idx → EReal) : S50000x128.Idx → EReal) (((cfg0.win 2).blk t).view.emb (ix2 r q) : S50000x128.Idx)
  refine (productEntry0 _ _ r q).trans ?_
  unfold matProd
  refine Finset.sum_congr rfl fun k _ => ?_
  rw [lhsBlock0 V c t (ix2 r k) (ix2 ((((cfg0.win 2).blk t).view.emb (ix2 r q) : S50000x128.Idx) 0) k) g0 rfl, rhsBlock0 V c t (ix2 k q)]
  exact congrArg _ (congrArg _ (congrArg (ix2 k) (Fin.ext g1.symm)))

/-- An index of the result array is in point `t`'s block iff its row is one of the block's 2000. -/
theorem memBlock0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- The 25 blocks cover the result array: row `r` is in the block of point `r / 2000`. -/
theorem cover0 (i : S50000x128.Idx) : ∃ t : Fin cfg0.N, (cfg0.win 2).flush t = true ∧ i ∈ ((cfg0.win 2).blk t).view.set := by
  have hN : cfg0.N = 25 := N_0
  have hi0 : (i 0).val < 50000 := (i 0).isLt
  have hi1 : (i 1).val < 128 := (i 1).isLt
  have ht : (i 0).val / 2000 < cfg0.N := by rw [hN]; omega
  refine ⟨⟨(i 0).val / 2000, ht⟩, flush0_2 _, ?_⟩
  rw [memBlock0]
  obtain ⟨-, -, -, -, e4, e5⟩ := idx0 ⟨(i 0).val / 2000, ht⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ _ ∧ _ < (i 0).val / 2000 * 2000 + 2000; omega
  | ⟨1, _⟩ => show win0_2.index _ (1 : Fin 2) * 128 ≤ (i 1).val ∧ (i 1).val < win0_2.index _ (1 : Fin 2) * 128 + 128; rw [e5]; omega

/-- THE RESULT ARRAY after region 0: the whole product of the two arrays the region was entered with. -/
theorem product0 (c : Dev nD) :
    (dat0 (F := Ideal) V c).arrAt 2 cfg0.N
      = (matProd (V c main_arg0 : S50000x128.Idx → EReal) (V c main_arg2 : S128x128.Idx → EReal) : S50000x128.Idx → EReal) :=
  (dat0 V c).arrAt_eq_of_cover 2 _ (fun t _ => flushed0 V c t) cover0

/-! ## The product launched as region 2: [50000, 128] × [128, 64] in 25 blocks of 2000 rows -/

/-- The block index maps over the 25 grid points: the left operand's and the result's blocks move down the rows with the
    point, the right operand's block stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `2000 t … 2000 t + 1999` of its array. -/
theorem lhsBlock2 (c : Dev nD) (t : Fin cfg2.N) (y : S2000x128.Idx) (k : S50000x128.Idx)
    (h0 : (k 0).val = 2000 * t.val + (y 0).val) (h1 : (k 1).val = (y 1).val) :
    (iblk2 V c 0 t : Vec Ideal S2000x128 .f32) y = (V c main_v43 : S50000x128.Idx → EReal) k := by
  obtain ⟨e0, e1, -⟩ := idx2 t
  unfold iblk2
  rw [View.read_apply]
  show V c main_v43 _ = V c main_v43 _
  congr 1
  funext a; apply Fin.ext
  match a with
  | ⟨0, _⟩ => show win2_0.index t (0 : Fin 2) * 2000 + 1 * (y 0).val = (k 0).val; rw [e0, h0]; omega
  | ⟨1, _⟩ => show win2_0.index t (1 : Fin 2) * 128 + 1 * (y 1).val = (k 1).val; rw [e1, h1]; omega

/-- The right operand's block at every point is its whole array. -/
theorem rhsBlock2 (c : Dev nD) (t : Fin cfg2.N) (y : S128x64.Idx) :
    (iblk2 V c 1 t : Vec Ideal S128x64 .f32) y = (V c main_arg4 : S128x64.Idx → EReal) y := by
  obtain ⟨-, -, e2, e3, -⟩ := idx2 t
  unfold iblk2
  rw [View.read_apply]
  show V c main_arg4 _ = V c main_arg4 _
  congr 1
  funext a; apply Fin.ext
  match a with
  | ⟨0, _⟩ => show win2_1.index t (0 : Fin 2) * 128 + 1 * (y 0).val = (y 0).val; rw [e2]; omega
  | ⟨1, _⟩ => show win2_1.index t (1 : Fin 2) * 64 + 1 * (y 1).val = (y 1).val; rw [e3]; omega

/-- Where an entry of the result's block at point `t` sits in the result array. -/
theorem outEmb2 (t : Fin cfg2.N) (y : S2000x64.Idx) :
    ((((cfg2.win 2).blk t).view.emb y : S50000x64.Idx) 0).val = 2000 * t.val + (y 0).val
    ∧ ((((cfg2.win 2).blk t).view.emb y : S50000x64.Idx) 1).val = (y 1).val := by
  obtain ⟨-, -, -, -, e4, e5⟩ := idx2 t
  constructor
  · show win2_2.index t (0 : Fin 2) * 2000 + 1 * (y 0).val = _; rw [e4]; omega
  · show win2_2.index t (1 : Fin 2) * 64 + 1 * (y 1).val = _; rw [e5]; omega

/-- The dimension numbers of the device's product say "rows times columns". -/
theorem rtc2 : RowsTimesCols dot_S2000x128_S128x64_S2000x64_1_0_0_1_n_n :=
  ⟨rfl, rfl,
   fun j q => by
     unfold DotDims.lhsIdx
     rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
     rfl,
   fun j q => dot_S2000x128_S128x64_S2000x64_1_0_0_1_n_n.lhsIdx_val_of_single rfl j q,
   fun j q => dot_S2000x128_S128x64_S2000x64_1_0_0_1_n_n.rhsIdx_val_of_single rfl j q,
   fun j q => by
     unfold DotDims.rhsIdx
     rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
     rfl⟩

/-- What the body stores at a block entry: the row of the left block times the column of the right one (the changes of
    float format are the identity on extended reals, the accumulator is zero). -/
theorem productEntry2 (x0 : Vec Ideal S2000x128 .f32) (x1 : Vec Ideal S128x64 .f32) (r : Fin 2000) (q : Fin 64) :
    k2_pay1 x0 x1 (ix2 r q) = ∑ k : Fin 128, x0 (ix2 r k) * x1 (ix2 k q) := by
  unfold k2_pay1
  rw [shapeCast_self]
  exact congrFun (rowOf_matmul_zero rtc2 none _ _ r) q

/-- WHAT POINT `t` WRITES BACK is block `t` of the whole product of the two arrays as the region finds them. -/
theorem flushed2 (c : Dev nD) (t : Fin cfg2.N) :
    (dat2 (F := Ideal) V c).flushed 2 t = ((cfg2.win 2).blk t).view.read (Elt Ideal)
      (matProd (V c main_v43 : S50000x128.Idx → EReal) (V c main_arg4 : S128x64.Idx → EReal) : S50000x64.Idx → EReal) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  funext y
  obtain ⟨r, q, rfl⟩ : ∃ (r : Fin 2000) (q : Fin 64), y = ix2 r q := ⟨y 0, y 1, eq_ix2 y⟩
  obtain ⟨g0, g1⟩ := outEmb2 t (ix2 r q)
  show k2_pay1 (iblk2 V c 0 t) (iblk2 V c 1 t) (ix2 r q)
    = (matProd (V c main_v43 : S50000x128.Idx → EReal) (V c main_arg4 : S128x64.Idx → EReal) : S50000x64.Idx → EReal) (((cfg2.win 2).blk t).view.emb (ix2 r q) : S50000x64.Idx)
  refine (productEntry2 _ _ r q).trans ?_
  unfold matProd
  refine Finset.sum_congr rfl fun k _ => ?_
  rw [lhsBlock2 V c t (ix2 r k) (ix2 ((((cfg2.win 2).blk t).view.emb (ix2 r q) : S50000x64.Idx) 0) k) g0 rfl, rhsBlock2 V c t (ix2 k q)]
  exact congrArg _ (congrArg _ (congrArg (ix2 k) (Fin.ext g1.symm)))

/-- An index of the result array is in point `t`'s block iff its row is one of the block's 2000. -/
theorem memBlock2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v44).slice (win2_2.rect t)).set ↔ _
  rw [View.set_slice_whole, Rect.mem_set_unit]
  exact Iff.rfl

/-- The 25 blocks cover the result array: row `r` is in the block of point `r / 2000`. -/
theorem cover2 (i : S50000x64.Idx) : ∃ t : Fin cfg2.N, (cfg2.win 2).flush t = true ∧ i ∈ ((cfg2.win 2).blk t).view.set := by
  have hN : cfg2.N = 25 := N_2
  have hi0 : (i 0).val < 50000 := (i 0).isLt
  have hi1 : (i 1).val < 64 := (i 1).isLt
  have ht : (i 0).val / 2000 < cfg2.N := by rw [hN]; omega
  refine ⟨⟨(i 0).val / 2000, ht⟩, flush2_2 _, ?_⟩
  rw [memBlock2]
  obtain ⟨-, -, -, -, e4, e5⟩ := idx2 ⟨(i 0).val / 2000, ht⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ _ ∧ _ < (i 0).val / 2000 * 2000 + 2000; omega
  | ⟨1, _⟩ => show win2_2.index _ (1 : Fin 2) * 64 ≤ (i 1).val ∧ (i 1).val < win2_2.index _ (1 : Fin 2) * 64 + 64; rw [e5]; omega

/-- THE RESULT ARRAY after region 2: the whole product of the two arrays the region was entered with. -/
theorem product2 (c : Dev nD) :
    (dat2 (F := Ideal) V c).arrAt 2 cfg2.N
      = (matProd (V c main_v43 : S50000x128.Idx → EReal) (V c main_arg4 : S128x64.Idx → EReal) : S50000x64.Idx → EReal) :=
  (dat2 V c).arrAt_eq_of_cover 2 _ (fun t _ => flushed2 V c t) cover2

end Cert.KernelIdeal.Products

end
-- ==== Proof.Combines.lean ====
/-
  The two node-by-node combinations of the network, each launched over 25 blocks of 2000 nodes: every block of the
  result holds, for its nodes, the aggregated messages plus the node's own projected row scaled by the node's factor,
  plus the bias row, rectified at zero — so the array the region leaves is that combination of the four arrays it
  was entered with, entry by entry.
-/
import proofs.«132799_j34540126994448_1_alg».proof.Proof.Gen.KernelIdeal.Frame
import proofs.«132799_j34540126994448_1_alg».proof.Proof.LibRowLayers
import proofs.«132799_j34540126994448_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws
import proofs.«132799_j34540126994448_1_alg».proof.Proof.LibGraphLayer
set_option maxRecDepth 16384

noncomputable section

namespace Cert.KernelIdeal.Combines

open Cert.KernelIdeal Cert.KernelIdeal.Gen
open Idealize.ShloMosaic Idealize.ShloMosaic.TcCoe Idealize.ShloMosaic.ValueIdx Idealize.SL.Sem
open Idealize.ShloMosaic.Pipeline (Dat)

open Cert.ColumnBroadcast Cert.GraphLayer

variable (V : (c : Dev nD) → (b : Ref sig .tc) → Buf (Elt Ideal) ((c : Thread nD τ).loc b))

theorem hz : (![0, 0] : Fin 2 → Nat) = fun _ => 0 := funext fun a => by fin_cases a <;> rfl

/-! ## The combination launched as region 1: [50000, 128] in 25 blocks of 2000 rows -/

/-- The block index maps over the 25 grid points: every window but the bias row's moves down the rows with the point. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated messages' block at point `t` is rows `2000 t … 2000 t + 1999` of their array. -/
theorem aggBlock1 (c : Dev nD) (t : Fin cfg1.N) (y : S2000x128.Idx) (k : S50000x128.Idx)
    (h0 : (k 0).val = 2000 * t.val + (y 0).val) (h1 : (k 1).val = (y 1).val) :
    (iblk1 V c 0 t : Vec Ideal S2000x128 .f32) y = (V c main_v40 : S50000x128.Idx → EReal) k := by
  obtain ⟨e0, e1, -⟩ := idx1 t
  unfold iblk1
  rw [View.read_apply]
  show V c main_v40 _ = V c main_v40 _
  congr 1
  funext a; apply Fin.ext
  match a with
  | ⟨0, _⟩ => show win1_0.index t (0 : Fin 2) * 2000 + 1 * (y 0).val = (k 0).val; rw [e0, h0]; omega
  | ⟨1, _⟩ => show win1_0.index t (1 : Fin 2) * 128 + 1 * (y 1).val = (k 1).val; rw [e1, h1]; omega

/-- The projected rows' block at point `t` is the same rows of their array. -/
theorem ownBlock1 (c : Dev nD) (t : Fin cfg1.N) (y : S2000x128.Idx) (k : S50000x128.Idx)
    (h0 : (k 0).val = 2000 * t.val + (y 0).val) (h1 : (k 1).val = (y 1).val) :
    (iblk1 V c 1 t : Vec Ideal S2000x128 .f32) y = (V c main_v27 : S50000x128.Idx → EReal) k := by
  obtain ⟨-, -, e0, e1, -⟩ := idx1 t
  unfold iblk1
  rw [View.read_apply]
  show V c main_v27 _ = V c main_v27 _
  congr 1
  funext a; apply Fin.ext
  match a with
  | ⟨0, _⟩ => show win1_1.index t (0 : Fin 2) * 2000 + 1 * (y 0).val = (k 0).val; rw [e0, h0]; omega
  | ⟨1, _⟩ => show win1_1.index t (1 : Fin 2) * 128 + 1 * (y 1).val = (k 1).val; rw [e1, h1]; omega

/-- The per-node factors' block at point `t` is the same rows of their one-column array. -/
theorem colBlock1 (c : Dev nD) (t : Fin cfg1.N) (y : S2000x1.Idx) (k : S50000x1.Idx)
    (h0 : (k 0).val = 2000 * t.val + (y 0).val) (h1 : (k 1).val = (y 1).val) :
    (iblk1 V c 2 t : Vec Ideal S2000x1 .f32) y = (V c main_v41 : S50000x1.Idx → EReal) k := by
  obtain ⟨-, -, -, -, e0, e1, -⟩ := idx1 t
  unfold iblk1
  rw [View.read_apply]
  show V c main_v41 _ = V c main_v41 _
  congr 1
  funext a; apply Fin.ext
  match a with
  | ⟨0, _⟩ => show win1_2.index t (0 : Fin 2) * 2000 + 1 * (y 0).val = (k 0).val; rw [e0, h0]; omega
  | ⟨1, _⟩ => show win1_2.index t (1 : Fin 2) * 1 + 1 * (y 1).val = (k 1).val; rw [e1, h1]; omega

/-- The bias row's block at every point is its whole one-row array. -/
theorem biasBlock1 (c : Dev nD) (t : Fin cfg1.N) (y : S1x128.Idx) :
    (iblk1 V c 3 t : Vec Ideal S1x128 .f32) y = (V c main_v42 : S1x128.Idx → EReal) y := by
  obtain ⟨-, -, -, -, -, -, e0, e1, -⟩ := idx1 t
  unfold iblk1
  rw [View.read_apply]
  show V c main_v42 _ = V c main_v42 _
  congr 1
  funext a; apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- Where an entry of the result's block at point `t` sits in the result array. -/
theorem outEmb1 (t : Fin cfg1.N) (y : S2000x128.Idx) :
    ((((cfg1.win 4).blk t).view.emb y : S50000x128.Idx) 0).val = 2000 * t.val + (y 0).val
    ∧ ((((cfg1.win 4).blk t).view.emb y : S50000x128.Idx) 1).val = (y 1).val := by
  obtain ⟨-, -, -, -, -, -, -, -, e4, e5⟩ := idx1 t
  constructor
  · show win1_4.index t (0 : Fin 2) * 2000 + 1 * (y 0).val = _; rw [e4]; omega
  · show win1_4.index t (1 : Fin 2) * 128 + 1 * (y 1).val = _; rw [e5]; omega

/-- What the body stores at a block entry: the messages' entry plus the node's own entry scaled by the node's factor,
    plus the bias entry of the column, rectified at zero. -/
theorem combineEntry1 (x0 x1 : Vec Ideal S2000x128 .f32) (x2 : Vec Ideal S2000x1 .f32) (x3 : Vec Ideal S1x128 .f32)
    (r : Fin 2000) (q : Fin 128) :
    k1_pay1 x0 x1 x2 x3 (ix2 r q)
      = max ((x0 (ix2 r q) + x1 (ix2 r q) * x2 (ix2 r (0 : Fin 1))) + x3 (ix2 (0 : Fin 1) q)) (Ideal.ofBits .f32 0x00000000#32) := by
  unfold k1_pay1
  simp only [shapeCast_self]
  show max ((x0 (ix2 r q) + x1 (ix2 r q) * broadcastTo S2000x128 x2 broadcasts_S2000x1_S2000x128 (ix2 r q))
      + broadcastTo S2000x128 x3 broadcasts_S1x128_S2000x128 (ix2 r q)) _ = _
  rw [broadcastTo_a1_ab_apply x2 broadcasts_S2000x1_S2000x128 r q, broadcastTo_1b_ab_apply x3 broadcasts_S1x128_S2000x128 r q]
  rfl

/-- WHAT POINT `t` WRITES BACK is block `t` of the node-by-node combination of the four arrays as the region finds them. -/
theorem flushed1 (c : Dev nD) (t : Fin cfg1.N) :
    (dat1 (F := Ideal) V c).flushed 4 t = ((cfg1.win 4).blk t).view.read (Elt Ideal)
      (nodeCombine (Ideal.ofBits .f32 0x00000000#32) (V c main_v40 : S50000x128.Idx → EReal) (V c main_v27 : S50000x128.Idx → EReal)
        (V c main_v41 : S50000x1.Idx → EReal) (V c main_v42 : S1x128.Idx → EReal) : S50000x128.Idx → EReal) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  funext y
  obtain ⟨r, q, rfl⟩ : ∃ (r : Fin 2000) (q : Fin 128), y = ix2 r q := ⟨y 0, y 1, eq_ix2 y⟩
  obtain ⟨g0, g1⟩ := outEmb1 t (ix2 r q)
  show k1_pay1 (iblk1 V c 0 t) (iblk1 V c 1 t) (iblk1 V c 2 t) (iblk1 V c 3 t) (ix2 r q)
    = nodeCombine (Ideal.ofBits .f32 0x00000000#32) (V c main_v40 : S50000x128.Idx → EReal) (V c main_v27 : S50000x128.Idx → EReal)
        (V c main_v41 : S50000x1.Idx → EReal) (V c main_v42 : S1x128.Idx → EReal) (((cfg1.win 4).blk t).view.emb (ix2 r q) : S50000x128.Idx)
  refine (combineEntry1 _ _ _ _ r q).trans ?_
  rw [aggBlock1 V c t (ix2 r q) _ g0 g1, ownBlock1 V c t (ix2 r q) _ g0 g1,
    colBlock1 V c t (ix2 r (0 : Fin 1)) (ix2 ((((cfg1.win 4).blk t).view.emb (ix2 r q) : S50000x128.Idx) 0) (0 : Fin 1)) g0 rfl,
    biasBlock1 V c t (ix2 (0 : Fin 1) q)]
  exact nodeCombine_apply_of_col _ _ _ _ _ _ q (Fin.ext g1.symm)

/-- An index of the result array is in point `t`'s block iff its row is one of the block's 2000. -/
theorem memBlock1 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v43).slice (win1_4.rect t)).set ↔ _
  rw [View.set_slice_whole, Rect.mem_set_unit]
  exact Iff.rfl

/-- The 25 blocks cover the result array: row `r` is in the block of point `r / 2000`. -/
theorem cover1 (i : S50000x128.Idx) : ∃ t : Fin cfg1.N, (cfg1.win 4).flush t = true ∧ i ∈ ((cfg1.win 4).blk t).view.set := by
  have hN : cfg1.N = 25 := N_1
  have hi0 : (i 0).val < 50000 := (i 0).isLt
  have hi1 : (i 1).val < 128 := (i 1).isLt
  have ht : (i 0).val / 2000 < cfg1.N := by rw [hN]; omega
  refine ⟨⟨(i 0).val / 2000, ht⟩, flush1_4 _, ?_⟩
  rw [memBlock1]
  obtain ⟨-, -, -, -, -, -, -, -, e4, e5⟩ := idx1 ⟨(i 0).val / 2000, ht⟩
  intro a
  match a with
  | ⟨0, _⟩ => show win1_4.index _ (0 : Fin 2) * 2000 ≤ (i 0).val ∧ (i 0).val < win1_4.index _ (0 : Fin 2) * 2000 + 2000; rw [e4]; show (i 0).val / 2000 * 2000 ≤ _ ∧ _ < (i 0).val / 2000 * 2000 + 2000; omega
  | ⟨1, _⟩ => show win1_4.index _ (1 : Fin 2) * 128 ≤ (i 1).val ∧ (i 1).val < win1_4.index _ (1 : Fin 2) * 128 + 128; rw [e5]; omega

/-- THE RESULT ARRAY after region 1: the node-by-node combination of the four arrays the region was entered with. -/
theorem combined1 (c : Dev nD) :
    (dat1 (F := Ideal) V c).arrAt 4 cfg1.N
      = (nodeCombine (Ideal.ofBits .f32 0x00000000#32) (V c main_v40 : S50000x128.Idx → EReal) (V c main_v27 : S50000x128.Idx → EReal)
          (V c main_v41 : S50000x1.Idx → EReal) (V c main_v42 : S1x128.Idx → EReal) : S50000x128.Idx → EReal) :=
  (dat1 V c).arrAt_eq_of_cover 4 _ (fun t _ => flushed1 V c t) cover1

/-! ## The combination launched as region 3: [50000, 64] in 25 blocks of 2000 rows -/

/-- The block index maps over the 25 grid points: every window but the bias row's moves down the rows with the point. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregated messages' block at point `t` is rows `2000 t … 2000 t + 1999` of their array. -/
theorem aggBlock3 (c : Dev nD) (t : Fin cfg3.N) (y : S2000x64.Idx) (k : S50000x64.Idx)
    (h0 : (k 0).val = 2000 * t.val + (y 0).val) (h1 : (k 1).val = (y 1).val) :
    (iblk3 V c 0 t : Vec Ideal S2000x64 .f32) y = (V c main_v57 : S50000x64.Idx → EReal) k := by
  obtain ⟨e0, e1, -⟩ := idx3 t
  unfold iblk3
  rw [View.read_apply]
  show V c main_v57 _ = V c main_v57 _
  congr 1
  funext a; apply Fin.ext
  match a with
  | ⟨0, _⟩ => show win3_0.index t (0 : Fin 2) * 2000 + 1 * (y 0).val = (k 0).val; rw [e0, h0]; omega
  | ⟨1, _⟩ => show win3_0.index t (1 : Fin 2) * 64 + 1 * (y 1).val = (k 1).val; rw [e1, h1]; omega

/-- The projected rows' block at point `t` is the same rows of their array. -/
theorem ownBlock3 (c : Dev nD) (t : Fin cfg3.N) (y : S2000x64.Idx) (k : S50000x64.Idx)
    (h0 : (k 0).val = 2000 * t.val + (y 0).val) (h1 : (k 1).val = (y 1).val) :
    (iblk3 V c 1 t : Vec Ideal S2000x64 .f32) y = (V c main_v44 : S50000x64.Idx → EReal) k := by
  obtain ⟨-, -, e0, e1, -⟩ := idx3 t
  unfold iblk3
  rw [View.read_apply]
  show V c main_v44 _ = V c main_v44 _
  congr 1
  funext a; apply Fin.ext
  match a with
  | ⟨0, _⟩ => show win3_1.index t (0 : Fin 2) * 2000 + 1 * (y 0).val = (k 0).val; rw [e0, h0]; omega
  | ⟨1, _⟩ => show win3_1.index t (1 : Fin 2) * 64 + 1 * (y 1).val = (k 1).val; rw [e1, h1]; omega

/-- The per-node factors' block at point `t` is the same rows of their one-column array. -/
theorem colBlock3 (c : Dev nD) (t : Fin cfg3.N) (y : S2000x1.Idx) (k : S50000x1.Idx)
    (h0 : (k 0).val = 2000 * t.val + (y 0).val) (h1 : (k 1).val = (y 1).val) :
    (iblk3 V c 2 t : Vec Ideal S2000x1 .f32) y = (V c main_v58 : S50000x1.Idx → EReal) k := by
  obtain ⟨-, -, -, -, e0, e1, -⟩ := idx3 t
  unfold iblk3
  rw [View.read_apply]
  show V c main_v58 _ = V c main_v58 _
  congr 1
  funext a; apply Fin.ext
  match a with
  | ⟨0, _⟩ => show win3_2.index t (0 : Fin 2) * 2000 + 1 * (y 0).val = (k 0).val; rw [e0, h0]; omega
  | ⟨1, _⟩ => show win3_2.index t (1 : Fin 2) * 1 + 1 * (y 1).val = (k 1).val; rw [e1, h1]; omega

/-- The bias row's block at every point is its whole one-row array. -/
theorem biasBlock3 (c : Dev nD) (t : Fin cfg3.N) (y : S1x64.Idx) :
    (iblk3 V c 3 t : Vec Ideal S1x64 .f32) y = (V c main_v59 : S1x64.Idx → EReal) y := by
  obtain ⟨-, -, -, -, -, -, e0, e1, -⟩ := idx3 t
  unfold iblk3
  rw [View.read_apply]
  show V c main_v59 _ = V c main_v59 _
  congr 1
  funext a; apply Fin.ext
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

/-- Where an entry of the result's block at point `t` sits in the result array. -/
theorem outEmb3 (t : Fin cfg3.N) (y : S2000x64.Idx) :
    ((((cfg3.win 4).blk t).view.emb y : S50000x64.Idx) 0).val = 2000 * t.val + (y 0).val
    ∧ ((((cfg3.win 4).blk t).view.emb y : S50000x64.Idx) 1).val = (y 1).val := by
  obtain ⟨-, -, -, -, -, -, -, -, e4, e5⟩ := idx3 t
  constructor
  · show win3_4.index t (0 : Fin 2) * 2000 + 1 * (y 0).val = _; rw [e4]; omega
  · show win3_4.index t (1 : Fin 2) * 64 + 1 * (y 1).val = _; rw [e5]; omega

/-- What the body stores at a block entry: the messages' entry plus the node's own entry scaled by the node's factor,
    plus the bias entry of the column, rectified at zero. -/
theorem combineEntry3 (x0 x1 : Vec Ideal S2000x64 .f32) (x2 : Vec Ideal S2000x1 .f32) (x3 : Vec Ideal S1x64 .f32)
    (r : Fin 2000) (q : Fin 64) :
    k3_pay1 x0 x1 x2 x3 (ix2 r q)
      = max ((x0 (ix2 r q) + x1 (ix2 r q) * x2 (ix2 r (0 : Fin 1))) + x3 (ix2 (0 : Fin 1) q)) (Ideal.ofBits .f32 0x00000000#32) := by
  unfold k3_pay1
  simp only [shapeCast_self]
  show max ((x0 (ix2 r q) + x1 (ix2 r q) * broadcastTo S2000x64 x2 broadcasts_S2000x1_S2000x64 (ix2 r q))
      + broadcastTo S2000x64 x3 broadcasts_S1x64_S2000x64 (ix2 r q)) _ = _
  rw [broadcastTo_a1_ab_apply x2 broadcasts_S2000x1_S2000x64 r q, broadcastTo_1b_ab_apply x3 broadcasts_S1x64_S2000x64 r q]
  rfl

/-- WHAT POINT `t` WRITES BACK is block `t` of the node-by-node combination of the four arrays as the region finds them. -/
theorem flushed3 (c : Dev nD) (t : Fin cfg3.N) :
    (dat3 (F := Ideal) V c).flushed 4 t = ((cfg3.win 4).blk t).view.read (Elt Ideal)
      (nodeCombine (Ideal.ofBits .f32 0x00000000#32) (V c main_v57 : S50000x64.Idx → EReal) (V c main_v44 : S50000x64.Idx → EReal)
        (V c main_v58 : S50000x1.Idx → EReal) (V c main_v59 : S1x64.Idx → EReal) : S50000x64.Idx → EReal) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  funext y
  obtain ⟨r, q, rfl⟩ : ∃ (r : Fin 2000) (q : Fin 64), y = ix2 r q := ⟨y 0, y 1, eq_ix2 y⟩
  obtain ⟨g0, g1⟩ := outEmb3 t (ix2 r q)
  show k3_pay1 (iblk3 V c 0 t) (iblk3 V c 1 t) (iblk3 V c 2 t) (iblk3 V c 3 t) (ix2 r q)
    = nodeCombine (Ideal.ofBits .f32 0x00000000#32) (V c main_v57 : S50000x64.Idx → EReal) (V c main_v44 : S50000x64.Idx → EReal)
        (V c main_v58 : S50000x1.Idx → EReal) (V c main_v59 : S1x64.Idx → EReal) (((cfg3.win 4).blk t).view.emb (ix2 r q) : S50000x64.Idx)
  refine (combineEntry3 _ _ _ _ r q).trans ?_
  rw [aggBlock3 V c t (ix2 r q) _ g0 g1, ownBlock3 V c t (ix2 r q) _ g0 g1,
    colBlock3 V c t (ix2 r (0 : Fin 1)) (ix2 ((((cfg3.win 4).blk t).view.emb (ix2 r q) : S50000x64.Idx) 0) (0 : Fin 1)) g0 rfl,
    biasBlock3 V c t (ix2 (0 : Fin 1) q)]
  exact nodeCombine_apply_of_col _ _ _ _ _ _ q (Fin.ext g1.symm)

/-- An index of the result array is in point `t`'s block iff its row is one of the block's 2000. -/
theorem memBlock3 (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v60).slice (win3_4.rect t)).set ↔ _
  rw [View.set_slice_whole, Rect.mem_set_unit]
  exact Iff.rfl

/-- The 25 blocks cover the result array: row `r` is in the block of point `r / 2000`. -/
theorem cover3 (i : S50000x64.Idx) : ∃ t : Fin cfg3.N, (cfg3.win 4).flush t = true ∧ i ∈ ((cfg3.win 4).blk t).view.set := by
  have hN : cfg3.N = 25 := N_3
  have hi0 : (i 0).val < 50000 := (i 0).isLt
  have hi1 : (i 1).val < 64 := (i 1).isLt
  have ht : (i 0).val / 2000 < cfg3.N := by rw [hN]; omega
  refine ⟨⟨(i 0).val / 2000, ht⟩, flush3_4 _, ?_⟩
  rw [memBlock3]
  obtain ⟨-, -, -, -, -, -, -, -, e4, e5⟩ := idx3 ⟨(i 0).val / 2000, ht⟩
  intro a
  match a with
  | ⟨0, _⟩ => show win3_4.index _ (0 : Fin 2) * 2000 ≤ (i 0).val ∧ (i 0).val < win3_4.index _ (0 : Fin 2) * 2000 + 2000; rw [e4]; show (i 0).val / 2000 * 2000 ≤ _ ∧ _ < (i 0).val / 2000 * 2000 + 2000; omega
  | ⟨1, _⟩ => show win3_4.index _ (1 : Fin 2) * 64 ≤ (i 1).val ∧ (i 1).val < win3_4.index _ (1 : Fin 2) * 64 + 64; rw [e5]; omega

/-- THE RESULT ARRAY after region 3: the node-by-node combination of the four arrays the region was entered with. -/
theorem combined3 (c : Dev nD) :
    (dat3 (F := Ideal) V c).arrAt 4 cfg3.N
      = (nodeCombine (Ideal.ofBits .f32 0x00000000#32) (V c main_v57 : S50000x64.Idx → EReal) (V c main_v44 : S50000x64.Idx → EReal)
          (V c main_v58 : S50000x1.Idx → EReal) (V c main_v59 : S1x64.Idx → EReal) : S50000x64.Idx → EReal) :=
  (dat3 V c).arrAt_eq_of_cover 4 _ (fun t _ => flushed3 V c t) cover3

end Cert.KernelIdeal.Combines

end
-- ==== Proof.Boundaries.lean ====
/-
  The device program read as one function of its six arguments.

  Between the launched regions the host computes, from the edge list alone, the edges' sources and targets, every
  node's inverse square-root degree, every edge's weight (the product of its two ends' factors) and every node's own
  weight (the square of its factor); and, per layer, gathers the projected rows along the edges' sources, scales them
  by the edge weights and adds them up at the edges' targets. Those host chains are named here as functions and never
  opened. The contents of the buffers at each boundary of the program are then read off, boundary by boundary: a host
  stretch rewrites what its operations write, a region rewrites its output array by the product or the combination of
  the arrays it was entered with. The result buffer ends at `network` of the arguments.
-/
import proofs.«132799_j34540126994448_1_alg».proof.Proof.Gen.KernelIdeal.Frame
import proofs.«132799_j34540126994448_1_alg».proof.Proof.LibGraphLayer
import proofs.«132799_j34540126994448_1_alg».proof.Proof.Products
import proofs.«132799_j34540126994448_1_alg».proof.Proof.Combines
import Idealize.ShloMosaic.Lib.StableHlo.Run

set_option maxRecDepth 16384

noncomputable section

namespace Cert.KernelIdeal.Boundaries

open Cert.KernelIdeal Cert.KernelIdeal.Gen Cert.GraphLayer
open Idealize.ShloMosaic Idealize.ShloMosaic.TcCoe Idealize.ShloMosaic.StableHlo Idealize.SL.Sem

/-- Integer and float arrays of a given shape, at the extended reals. -/
abbrev I32 (s : Shape) := (⟨s, .i32⟩ : BufTy).Contents (Elt Ideal)
abbrev F32 (s : Shape) := (⟨s, .f32⟩ : BufTy).Contents (Elt Ideal)

/-! ## The host chains, as functions -/

/-- The edges' sources: row 0 of the edge list. -/
def srcOf (e : I32 S2x800000) : I32 S800000 :=
  shapeCast _ (extractStridedSlice S1x800000 ![0, 0] e slices_S2x800000_S1x800000_0_0) shapeCasts_S1x800000_S800000

/-- The edges' targets: row 1 of the edge list. -/
def dstOf (e : I32 S2x800000) : I32 S800000 :=
  shapeCast _ (extractStridedSlice S1x800000 ![1, 0] e slices_S2x800000_S1x800000_1_0) shapeCasts_S1x800000_S800000

/-- A node index counted from the end (a negative one) is moved into range by adding the number of nodes. -/
def wrapped (ix : I32 S800000) : I32 S800000 :=
  select (cmpi .slt ix (broadcastInDim S800000 ![] bcast_S_S800000 (constantI S_ 32 0#32)))
    (addi ix (broadcastInDim S800000 ![] bcast_S_S800000 (constantI S_ 32 50000#32))) ix

/-- Every node's factor: the inverse square root of one plus the number of edges that end at it. -/
def invSqrtDeg (e : I32 S2x800000) : F32 S50000 :=
  Host.rsqrt (F := Ideal) (addf (F := Ideal)
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 (dstOf e))
      (broadcastInDim S800000 ![] bcast_S_S800000 (constant (F := Ideal) S_ .f32 0x3F800000#32)))
    (broadcastInDim S50000 ![] bcast_S_S50000 (constant (F := Ideal) S_ .f32 0x3F800000#32)))

/-- Every edge's weight: the product of the factors of its source and of its target. -/
def edgeWeight (e : I32 S2x800000) : F32 S800000 :=
  mulf (F := Ideal) (φ := .f32)
    (Host.gather gather_S50000_S800000x1_S800000_n_0_n_n_0_1_1 (invSqrtDeg e)
      (broadcastInDim S800000x1 ![0] bcast_S800000_S800000x1_0 (wrapped (srcOf e))))
    (Host.gather gather_S50000_S800000x1_S800000_n_0_n_n_0_1_1 (invSqrtDeg e)
      (broadcastInDim S800000x1 ![0] bcast_S800000_S800000x1_0 (wrapped (dstOf e))))

/-- Every node's own weight: the square of its factor. -/
def selfWeight (e : I32 S2x800000) : F32 S50000 := mulf (F := Ideal) (φ := .f32) (invSqrtDeg e) (invSqrtDeg e)

/-- The messages of the 128-wide layer: the rows of `h` gathered along the sources, scaled by the edge weights, added
    up at the targets. -/
def messages128 (h : F32 S50000x128) (src dst : I32 S800000) (w : F32 S800000) : F32 S50000x128 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (F := Ideal) (φ := .f32)
      (Host.gather gather_S50000x128_S800000x1_S800000x128_1_0_n_n_0_1_1128 h
        (broadcastInDim S800000x1 ![0] bcast_S800000_S800000x1_0 (wrapped src)))
      (broadcastInDim S800000x128 ![0, 1] bcast_S800000x1_S800000x128_0_1 (broadcastInDim S800000x1 ![0] bcast_S800000_S800000x1_0 w)))

/-- The messages of the 64-wide layer. -/
def messages64 (h : F32 S50000x64) (src dst : I32 S800000) (w : F32 S800000) : F32 S50000x64 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (F := Ideal) (φ := .f32)
      (Host.gather gather_S50000x64_S800000x1_S800000x64_1_0_n_n_0_1_164 h
        (broadcastInDim S800000x1 ![0] bcast_S800000_S800000x1_0 (wrapped src)))
      (broadcastInDim S800000x64 ![0, 1] bcast_S800000x1_S800000x64_0_1 (broadcastInDim S800000x1 ![0] bcast_S800000_S800000x1_0 w)))

/-- The rectifier's threshold. -/
abbrev zero : EReal := Ideal.ofBits .f32 0x00000000#32

/-- The first layer: project, pass messages, combine. -/
def layer1 (x : F32 S50000x128) (e : I32 S2x800000) (w1 : F32 S128x128) (b1 : F32 S128) : F32 S50000x128 :=
  nodeCombine zero (messages128 (matProd x w1) (srcOf e) (dstOf e) (edgeWeight e)) (matProd x w1)
    (shapeCast S50000x1 (selfWeight e) shapeCasts_S50000_S50000x1) (shapeCast S1x128 b1 shapeCasts_S128_S1x128)

/-- The second layer on the first one's result: the whole network. -/
def network (x : F32 S50000x128) (e : I32 S2x800000) (w1 : F32 S128x128) (b1 : F32 S128) (w2 : F32 S128x64) (b2 : F32 S64) : F32 S50000x64 :=
  nodeCombine zero (messages64 (matProd (layer1 x e w1 b1) w2) (srcOf e) (dstOf e) (edgeWeight e)) (matProd (layer1 x e w1 b1) w2)
    (shapeCast S50000x1 (selfWeight e) shapeCasts_S50000_S50000x1) (shapeCast S1x64 b2 shapeCasts_S64_S1x64)

/-! ## The boundaries -/

variable (m : (ℓ : Loc nD τ sig) → Buf (Elt Ideal) ℓ) (ρ : Dev nD → PrngReg)

/-! ## After the first host stretch: the graph's quantities, and the arguments as launched -/

/-- The edges' sources. -/
theorem src1 (c : Dev nD) : W1 m ρ c (Proc.devRef .tc main_v1) = srcOf (m ((c : Thread nD τ).loc main_arg1)) := by
  show StableHlo.after hostOps0 (W0 m ρ c) (Proc.devRef .tc main_v1) = _
  dsimp only [hostOps0]
  after_results_simp <;> rfl
/-- The edges' targets. -/
theorem dst1 (c : Dev nD) : W1 m ρ c (Proc.devRef .tc main_v3) = dstOf (m ((c : Thread nD τ).loc main_arg1)) := by
  show StableHlo.after hostOps0 (W0 m ρ c) (Proc.devRef .tc main_v3) = _
  dsimp only [hostOps0]
  after_results_simp <;> rfl
/-- The edges' weights. -/
theorem weight1 (c : Dev nD) : W1 m ρ c (Proc.devRef .tc main_v25) = edgeWeight (m ((c : Thread nD τ).loc main_arg1)) := by
  show StableHlo.after hostOps0 (W0 m ρ c) (Proc.devRef .tc main_v25) = _
  dsimp only [hostOps0]
  after_results_simp <;> rfl
/-- The nodes' own weights. -/
theorem self1 (c : Dev nD) : W1 m ρ c (Proc.devRef .tc main_v26) = selfWeight (m ((c : Thread nD τ).loc main_arg1)) := by
  show StableHlo.after hostOps0 (W0 m ρ c) (Proc.devRef .tc main_v26) = _
  dsimp only [hostOps0]
  after_results_simp <;> rfl
/-- Argument `main_arg0` is as launched. -/
theorem arg0_1 (c : Dev nD) : W1 m ρ c (Proc.devRef .tc main_arg0) = m ((c : Thread nD τ).loc main_arg0) := by
  show StableHlo.after hostOps0 (W0 m ρ c) (Proc.devRef .tc main_arg0) = _
  dsimp only [hostOps0]
  after_results_simp <;> rfl
/-- Argument `main_arg2` is as launched. -/
theorem arg2_1 (c : Dev nD) : W1 m ρ c (Proc.devRef .tc main_arg2) = m ((c : Thread nD τ).loc main_arg2) := by
  show StableHlo.after hostOps0 (W0 m ρ c) (Proc.devRef .tc main_arg2) = _
  dsimp only [hostOps0]
  after_results_simp <;> rfl
/-- Argument `main_arg3` is as launched. -/
theorem arg3_1 (c : Dev nD) : W1 m ρ c (Proc.devRef .tc main_arg3) = m ((c : Thread nD τ).loc main_arg3) := by
  show StableHlo.after hostOps0 (W0 m ρ c) (Proc.devRef .tc main_arg3) = _
  dsimp only [hostOps0]
  after_results_simp <;> rfl
/-- Argument `main_arg4` is as launched. -/
theorem arg4_1 (c : Dev nD) : W1 m ρ c (Proc.devRef .tc main_arg4) = m ((c : Thread nD τ).loc main_arg4) := by
  show StableHlo.after hostOps0 (W0 m ρ c) (Proc.devRef .tc main_arg4) = _
  dsimp only [hostOps0]
  after_results_simp <;> rfl
/-- Argument `main_arg5` is as launched. -/
theorem arg5_1 (c : Dev nD) : W1 m ρ c (Proc.devRef .tc main_arg5) = m ((c : Thread nD τ).loc main_arg5) := by
  show StableHlo.after hostOps0 (W0 m ρ c) (Proc.devRef .tc main_arg5) = _
  dsimp only [hostOps0]
  after_results_simp <;> rfl

/-! ## After the first product -/

/-- The projected rows of the first layer. -/
theorem rows2 (c : Dev nD) :
    W2 m ρ c (Proc.devRef .tc main_v27) = (matProd (m ((c : Thread nD τ).loc main_arg0)) (m ((c : Thread nD τ).loc main_arg2)) : F32 S50000x128) :=
  (W2_arr m ρ c 2).trans ((Products.product0 (V1 m ρ) c).trans
    (congrArg₂ (fun (A : F32 S50000x128) (B : F32 S128x128) => (matProd A B : F32 S50000x128)) (arg0_1 m ρ c) (arg2_1 m ρ c)))
theorem keep2_v1 (c : Dev nD) : W2 m ρ c (Proc.devRef .tc main_v1) = W1 m ρ c (Proc.devRef .tc main_v1) :=
  W2_of_ne m ρ c main_v1 (by decide)
theorem keep2_v3 (c : Dev nD) : W2 m ρ c (Proc.devRef .tc main_v3) = W1 m ρ c (Proc.devRef .tc main_v3) :=
  W2_of_ne m ρ c main_v3 (by decide)
theorem keep2_v25 (c : Dev nD) : W2 m ρ c (Proc.devRef .tc main_v25) = W1 m ρ c (Proc.devRef .tc main_v25) :=
  W2_of_ne m ρ c main_v25 (by decide)
theorem keep2_v26 (c : Dev nD) : W2 m ρ c (Proc.devRef .tc main_v26) = W1 m ρ c (Proc.devRef .tc main_v26) :=
  W2_of_ne m ρ c main_v26 (by decide)
theorem keep2_arg3 (c : Dev nD) : W2 m ρ c (Proc.devRef .tc main_arg3) = W1 m ρ c (Proc.devRef .tc main_arg3) :=
  W2_of_ne m ρ c main_arg3 (by decide)
theorem keep2_arg4 (c : Dev nD) : W2 m ρ c (Proc.devRef .tc main_arg4) = W1 m ρ c (Proc.devRef .tc main_arg4) :=
  W2_of_ne m ρ c main_arg4 (by decide)
theorem keep2_arg5 (c : Dev nD) : W2 m ρ c (Proc.devRef .tc main_arg5) = W1 m ρ c (Proc.devRef .tc main_arg5) :=
  W2_of_ne m ρ c main_arg5 (by decide)

/-! ## After the second host stretch: the first layer's messages, and the keep-dims forms of the own weights and of the bias -/

/-- The first layer's messages, of what the boundary before held. -/
theorem messages3 (c : Dev nD) : W3 m ρ c (Proc.devRef .tc main_v40) = messages128 (W2 m ρ c (Proc.devRef .tc main_v27)) (W2 m ρ c (Proc.devRef .tc main_v1)) (W2 m ρ c (Proc.devRef .tc main_v3)) (W2 m ρ c (Proc.devRef .tc main_v25)) := by
  show StableHlo.after hostOps1 (W2 m ρ c) (Proc.devRef .tc main_v40) = _
  dsimp only [hostOps1]
  after_results_simp <;> rfl
/-- The own weights as a column. -/
theorem selfCol3 (c : Dev nD) : W3 m ρ c (Proc.devRef .tc main_v41) = shapeCast S50000x1 (W2 m ρ c (Proc.devRef .tc main_v26)) shapeCasts_S50000_S50000x1 := by
  show StableHlo.after hostOps1 (W2 m ρ c) (Proc.devRef .tc main_v41) = _
  dsimp only [hostOps1]
  after_results_simp <;> rfl
/-- The first bias as a row. -/
theorem biasRow3 (c : Dev nD) : W3 m ρ c (Proc.devRef .tc main_v42) = shapeCast S1x128 (W2 m ρ c (Proc.devRef .tc main_arg3)) shapeCasts_S128_S1x128 := by
  show StableHlo.after hostOps1 (W2 m ρ c) (Proc.devRef .tc main_v42) = _
  dsimp only [hostOps1]
  after_results_simp <;> rfl
/-- `main_v27` is not written by this stretch. -/
theorem keep3_v27 (c : Dev nD) : W3 m ρ c (Proc.devRef .tc main_v27) = W2 m ρ c (Proc.devRef .tc main_v27) := by
  show StableHlo.after hostOps1 (W2 m ρ c) (Proc.devRef .tc main_v27) = _
  dsimp only [hostOps1]
  after_results_simp <;> rfl
/-- `main_v1` is not written by this stretch. -/
theorem keep3_v1 (c : Dev nD) : W3 m ρ c (Proc.devRef .tc main_v1) = W2 m ρ c (Proc.devRef .tc main_v1) := by
  show StableHlo.after hostOps1 (W2 m ρ c) (Proc.devRef .tc main_v1) = _
  dsimp only [hostOps1]
  after_results_simp <;> rfl
/-- `main_v3` is not written by this stretch. -/
theorem keep3_v3 (c : Dev nD) : W3 m ρ c (Proc.devRef .tc main_v3) = W2 m ρ c (Proc.devRef .tc main_v3) := by
  show StableHlo.after hostOps1 (W2 m ρ c) (Proc.devRef .tc main_v3) = _
  dsimp only [hostOps1]
  after_results_simp <;> rfl
/-- `main_v25` is not written by this stretch. -/
theorem keep3_v25 (c : Dev nD) : W3 m ρ c (Proc.devRef .tc main_v25) = W2 m ρ c (Proc.devRef .tc main_v25) := by
  show StableHlo.after hostOps1 (W2 m ρ c) (Proc.devRef .tc main_v25) = _
  dsimp only [hostOps1]
  after_results_simp <;> rfl
/-- `main_v26` is not written by this stretch. -/
theorem keep3_v26 (c : Dev nD) : W3 m ρ c (Proc.devRef .tc main_v26) = W2 m ρ c (Proc.devRef .tc main_v26) := by
  show StableHlo.after hostOps1 (W2 m ρ c) (Proc.devRef .tc main_v26) = _
  dsimp only [hostOps1]
  after_results_simp <;> rfl
/-- `main_arg4` is not written by this stretch. -/
theorem keep3_arg4 (c : Dev nD) : W3 m ρ c (Proc.devRef .tc main_arg4) = W2 m ρ c (Proc.devRef .tc main_arg4) := by
  show StableHlo.after hostOps1 (W2 m ρ c) (Proc.devRef .tc main_arg4) = _
  dsimp only [hostOps1]
  after_results_simp <;> rfl
/-- `main_arg5` is not written by this stretch. -/
theorem keep3_arg5 (c : Dev nD) : W3 m ρ c (Proc.devRef .tc main_arg5) = W2 m ρ c (Proc.devRef .tc main_arg5) := by
  show StableHlo.after hostOps1 (W2 m ρ c) (Proc.devRef .tc main_arg5) = _
  dsimp only [hostOps1]
  after_results_simp <;> rfl

/-! ## After the first combination: the first layer -/

/-- The first layer's result. -/
theorem layer4 (c : Dev nD) :
    W4 m ρ c (Proc.devRef .tc main_v43)
      = layer1 (m ((c : Thread nD τ).loc main_arg0)) (m ((c : Thread nD τ).loc main_arg1)) (m ((c : Thread nD τ).loc main_arg2)) (m ((c : Thread nD τ).loc main_arg3)) := by
  refine (W4_arr m ρ c 4).trans ((Combines.combined1 (V3 m ρ) c).trans ?_)
  show nodeCombine zero (W3 m ρ c (Proc.devRef .tc main_v40)) (W3 m ρ c (Proc.devRef .tc main_v27))
      (W3 m ρ c (Proc.devRef .tc main_v41)) (W3 m ρ c (Proc.devRef .tc main_v42)) = _
  rw [messages3, keep3_v27, selfCol3, biasRow3, rows2, keep2_v1, keep2_v3, keep2_v25, keep2_v26, keep2_arg3,
    src1, dst1, weight1, self1, arg3_1]
  rfl
theorem keep4_v1 (c : Dev nD) : W4 m ρ c (Proc.devRef .tc main_v1) = W3 m ρ c (Proc.devRef .tc main_v1) :=
  W4_of_ne m ρ c main_v1 (by decide)
theorem keep4_v3 (c : Dev nD) : W4 m ρ c (Proc.devRef .tc main_v3) = W3 m ρ c (Proc.devRef .tc main_v3) :=
  W4_of_ne m ρ c main_v3 (by decide)
theorem keep4_v25 (c : Dev nD) : W4 m ρ c (Proc.devRef .tc main_v25) = W3 m ρ c (Proc.devRef .tc main_v25) :=
  W4_of_ne m ρ c main_v25 (by decide)
theorem keep4_v26 (c : Dev nD) : W4 m ρ c (Proc.devRef .tc main_v26) = W3 m ρ c (Proc.devRef .tc main_v26) :=
  W4_of_ne m ρ c main_v26 (by decide)
theorem keep4_arg4 (c : Dev nD) : W4 m ρ c (Proc.devRef .tc main_arg4) = W3 m ρ c (Proc.devRef .tc main_arg4) :=
  W4_of_ne m ρ c main_arg4 (by decide)
theorem keep4_arg5 (c : Dev nD) : W4 m ρ c (Proc.devRef .tc main_arg5) = W3 m ρ c (Proc.devRef .tc main_arg5) :=
  W4_of_ne m ρ c main_arg5 (by decide)

/-! ## After the second product -/

/-- The projected rows of the second layer. -/
theorem rows5 (c : Dev nD) :
    W5 m ρ c (Proc.devRef .tc main_v44)
      = (matProd (layer1 (m ((c : Thread nD τ).loc main_arg0)) (m ((c : Thread nD τ).loc main_arg1)) (m ((c : Thread nD τ).loc main_arg2)) (m ((c : Thread nD τ).loc main_arg3))) (m ((c : Thread nD τ).loc main_arg4)) : F32 S50000x64) :=
  (W5_arr m ρ c 2).trans ((Products.product2 (V4 m ρ) c).trans
    (congrArg₂ (fun (A : F32 S50000x128) (B : F32 S128x64) => (matProd A B : F32 S50000x64)) (layer4 m ρ c)
      ((keep4_arg4 m ρ c).trans ((keep3_arg4 m ρ c).trans ((keep2_arg4 m ρ c).trans (arg4_1 m ρ c))))))
theorem keep5_v1 (c : Dev nD) : W5 m ρ c (Proc.devRef .tc main_v1) = W4 m ρ c (Proc.devRef .tc main_v1) :=
  W5_of_ne m ρ c main_v1 (by decide)
theorem keep5_v3 (c : Dev nD) : W5 m ρ c (Proc.devRef .tc main_v3) = W4 m ρ c (Proc.devRef .tc main_v3) :=
  W5_of_ne m ρ c main_v3 (by decide)
theorem keep5_v25 (c : Dev nD) : W5 m ρ c (Proc.devRef .tc main_v25) = W4 m ρ c (Proc.devRef .tc main_v25) :=
  W5_of_ne m ρ c main_v25 (by decide)
theorem keep5_v26 (c : Dev nD) : W5 m ρ c (Proc.devRef .tc main_v26) = W4 m ρ c (Proc.devRef .tc main_v26) :=
  W5_of_ne m ρ c main_v26 (by decide)
theorem keep5_arg5 (c : Dev nD) : W5 m ρ c (Proc.devRef .tc main_arg5) = W4 m ρ c (Proc.devRef .tc main_arg5) :=
  W5_of_ne m ρ c main_arg5 (by decide)

/-! ## After the third host stretch: the second layer's messages -/

/-- The second layer's messages, of what the boundary before held. -/
theorem messages6 (c : Dev nD) : W6 m ρ c (Proc.devRef .tc main_v57) = messages64 (W5 m ρ c (Proc.devRef .tc main_v44)) (W5 m ρ c (Proc.devRef .tc main_v1)) (W5 m ρ c (Proc.devRef .tc main_v3)) (W5 m ρ c (Proc.devRef .tc main_v25)) := by
  show StableHlo.after hostOps3 (W5 m ρ c) (Proc.devRef .tc main_v57) = _
  dsimp only [hostOps3]
  after_results_simp <;> rfl
/-- The own weights as a column. -/
theorem selfCol6 (c : Dev nD) : W6 m ρ c (Proc.devRef .tc main_v58) = shapeCast S50000x1 (W5 m ρ c (Proc.devRef .tc main_v26)) shapeCasts_S50000_S50000x1 := by
  show StableHlo.after hostOps3 (W5 m ρ c) (Proc.devRef .tc main_v58) = _
  dsimp only [hostOps3]
  after_results_simp <;> rfl
/-- The second bias as a row. -/
theorem biasRow6 (c : Dev nD) : W6 m ρ c (Proc.devRef .tc main_v59) = shapeCast S1x64 (W5 m ρ c (Proc.devRef .tc main_arg5)) shapeCasts_S64_S1x64 := by
  show StableHlo.after hostOps3 (W5 m ρ c) (Proc.devRef .tc main_v59) = _
  dsimp only [hostOps3]
  after_results_simp <;> rfl
/-- The projected rows are not written by this stretch. -/
theorem keep6_v44 (c : Dev nD) : W6 m ρ c (Proc.devRef .tc main_v44) = W5 m ρ c (Proc.devRef .tc main_v44) := by
  show StableHlo.after hostOps3 (W5 m ρ c) (Proc.devRef .tc main_v44) = _
  dsimp only [hostOps3]
  after_results_simp <;> rfl

/-! ## After the second combination: the result -/

/-- The sources, the targets, the edge weights, the own weights and the second bias reach the last host stretch as the
    first one left them (no region and no later stretch writes them). -/
theorem carried5 (c : Dev nD) :
    W5 m ρ c (Proc.devRef .tc main_v1) = srcOf (m ((c : Thread nD τ).loc main_arg1))
    ∧ W5 m ρ c (Proc.devRef .tc main_v3) = dstOf (m ((c : Thread nD τ).loc main_arg1))
    ∧ W5 m ρ c (Proc.devRef .tc main_v25) = edgeWeight (m ((c : Thread nD τ).loc main_arg1))
    ∧ W5 m ρ c (Proc.devRef .tc main_v26) = selfWeight (m ((c : Thread nD τ).loc main_arg1))
    ∧ W5 m ρ c (Proc.devRef .tc main_arg5) = m ((c : Thread nD τ).loc main_arg5) :=
  ⟨(keep5_v1 m ρ c).trans ((keep4_v1 m ρ c).trans ((keep3_v1 m ρ c).trans ((keep2_v1 m ρ c).trans (src1 m ρ c)))),
   (keep5_v3 m ρ c).trans ((keep4_v3 m ρ c).trans ((keep3_v3 m ρ c).trans ((keep2_v3 m ρ c).trans (dst1 m ρ c)))),
   (keep5_v25 m ρ c).trans ((keep4_v25 m ρ c).trans ((keep3_v25 m ρ c).trans ((keep2_v25 m ρ c).trans (weight1 m ρ c)))),
   (keep5_v26 m ρ c).trans ((keep4_v26 m ρ c).trans ((keep3_v26 m ρ c).trans ((keep2_v26 m ρ c).trans (self1 m ρ c)))),
   (keep5_arg5 m ρ c).trans ((keep4_arg5 m ρ c).trans ((keep3_arg5 m ρ c).trans ((keep2_arg5 m ρ c).trans (arg5_1 m ρ c))))⟩

/-- THE RESULT BUFFER at the last boundary is the network of the six arguments. -/
theorem result (c : Dev nD) :
    W7 m ρ c (Proc.devRef .tc main_v60)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨h1, h3, h25, h26, h5⟩ := carried5 m ρ c
  refine (W7_arr m ρ c 4).trans ((Combines.combined3 (V6 m ρ) c).trans ?_)
  show nodeCombine zero (W6 m ρ c (Proc.devRef .tc main_v57)) (W6 m ρ c (Proc.devRef .tc main_v44))
      (W6 m ρ c (Proc.devRef .tc main_v58)) (W6 m ρ c (Proc.devRef .tc main_v59)) = _
  rw [messages6, keep6_v44, selfCol6, biasRow6, rows5, h1, h3, h25, h26, h5]
  rfl

end Cert.KernelIdeal.Boundaries

end
-- ==== Proof.ReferenceValue.lean ====
/-
  The reference program's result is the same network.

  The reference computes, per layer, the whole-array product, the same gather / scale / scatter-add chain along the
  edges (recomputing the graph's quantities from the edge list for each layer), and then, entry by entry, the messages
  plus the node's own row times the node's own weight plus the bias, rectified at zero. Its products are the sums over
  the contracted position; its message chains are, operation for operation, the chains named on the device side; and
  its broadcasts of the own weights (a vector made a column, then spread along the lanes) and of the bias (a vector
  made a row, then spread down the rows) read, at entry `(r, q)`, the weight of node `r` and the bias of column `q` — which
  is what the device's column and row forms read.
-/
import proofs.«132799_j34540126994448_1_alg».proof.Proof.Gen.ReferenceIdeal.Read
import proofs.«132799_j34540126994448_1_alg».proof.Proof.Boundaries
import Idealize.ShloMosaic.Lib.ValueLayout

set_option maxRecDepth 16384

noncomputable section

namespace Cert.Bridge

open Idealize.ShloMosaic Idealize.ShloMosaic.ValueIdx Cert.GraphLayer
open Cert.KernelIdeal.Boundaries (I32 F32 srcOf dstOf edgeWeight selfWeight messages128 messages64 layer1 network zero)

variable (x0 : F32 Cert.KernelIdeal.S50000x128) (x1 : I32 Cert.KernelIdeal.S2x800000) (x2 : F32 Cert.KernelIdeal.S128x128)
  (x3 : F32 Cert.KernelIdeal.S128) (x4 : F32 Cert.KernelIdeal.S128x64) (x5 : F32 Cert.KernelIdeal.S64)

/-- The reference's first product is the sum over the contracted position. -/
theorem rows1_eq : Cert.ReferenceIdeal.Read.val_main_v0 (F := Ideal) x0 x2 = (matProd x0 x2 : F32 Cert.KernelIdeal.S50000x128) := by
  funext i
  rw [Cert.ReferenceIdeal.Read.val_main_v0_apply]
  unfold matProd
  refine Finset.sum_congr rfl fun k _ => ?_
  have el : Cert.ReferenceIdeal.Read.lidx_main_v0 i k = ix2 (i 0) k := funext fun a => Fin.ext (by match a with | ⟨0, _⟩ => rfl | ⟨1, _⟩ => rfl)
  have er : Cert.ReferenceIdeal.Read.ridx_main_v0 i k = ix2 k (i 1) := funext fun a => Fin.ext (by match a with | ⟨0, _⟩ => rfl | ⟨1, _⟩ => rfl)
  rw [el, er]
  rfl

/-- The reference's own weights are the device's. -/
theorem self1_eq : Cert.ReferenceIdeal.Read.val_main_v40 (F := Ideal) x1 = selfWeight x1 := rfl

/-- The reference's first message chain is the device's, of the reference's own product. -/
theorem msgs1_eq : Cert.ReferenceIdeal.Read.val_main_v39 (F := Ideal) x0 x1 x2
    = messages128 (Cert.ReferenceIdeal.Read.val_main_v0 (F := Ideal) x0 x2) (srcOf x1) (dstOf x1) (edgeWeight x1) := rfl

/-- The reference's first layer, entry by entry, is the device's. -/
theorem layer1_eq : Cert.ReferenceIdeal.Read.val_main_v48 (F := Ideal) x0 x1 x2 x3 = layer1 x0 x1 x2 x3 := by
  funext i
  obtain ⟨r, q, rfl⟩ : ∃ (r : Fin 50000) (q : Fin 128), i = ix2 r q := ⟨i 0, i 1, eq_ix2 i⟩
  rw [Cert.ReferenceIdeal.Read.val_main_v48_apply, Cert.ReferenceIdeal.Read.val_main_v47_apply, Cert.ReferenceIdeal.Read.val_main_v44_apply,
    Cert.ReferenceIdeal.Read.val_main_v43_apply, Cert.ReferenceIdeal.Read.val_main_v42_apply, Cert.ReferenceIdeal.Read.val_main_v41_apply,
    Cert.ReferenceIdeal.Read.val_main_v46_apply, Cert.ReferenceIdeal.Read.val_main_v45_apply,
    Cert.ReferenceIdeal.Read.val_main_call0_v0_apply, Cert.ReferenceIdeal.Read.val_main_call0_cst_apply, msgs1_eq, rows1_eq, self1_eq]
  unfold layer1
  rw [nodeCombine_ix2, shapeCast_a_a1_apply, shapeCast_a_1a_apply]
  have e1 : Cert.ReferenceIdeal.Read.idx_main_v41 (Cert.ReferenceIdeal.Read.idx_main_v42 (ix2 r q)) = ix1 r :=
    funext fun a => Fin.ext (by match a with | ⟨0, _⟩ => rfl)
  have e2 : Cert.ReferenceIdeal.Read.idx_main_v45 (Cert.ReferenceIdeal.Read.idx_main_v46 (ix2 r q)) = ix1 q :=
    funext fun a => Fin.ext (by match a with | ⟨0, _⟩ => rfl)
  rw [e1, e2]
  rfl

/-- The reference's second product is the sum over the contracted position, of its first layer. -/
theorem rows2_eq : Cert.ReferenceIdeal.Read.val_main_v49 (F := Ideal) x0 x1 x2 x3 x4
    = (matProd (Cert.ReferenceIdeal.Read.val_main_v48 (F := Ideal) x0 x1 x2 x3) x4 : F32 Cert.KernelIdeal.S50000x64) := by
  funext i
  rw [Cert.ReferenceIdeal.Read.val_main_v49_apply]
  unfold matProd
  refine Finset.sum_congr rfl fun k _ => ?_
  have el : Cert.ReferenceIdeal.Read.lidx_main_v49 i k = ix2 (i 0) k := funext fun a => Fin.ext (by match a with | ⟨0, _⟩ => rfl | ⟨1, _⟩ => rfl)
  have er : Cert.ReferenceIdeal.Read.ridx_main_v49 i k = ix2 k (i 1) := funext fun a => Fin.ext (by match a with | ⟨0, _⟩ => rfl | ⟨1, _⟩ => rfl)
  rw [el, er]
  rfl

/-- The own weights the reference recomputes for its second layer are the same. -/
theorem self2_eq : Cert.ReferenceIdeal.Read.val_main_v89 (F := Ideal) x1 = selfWeight x1 := rfl

/-- The reference's second message chain (its graph quantities recomputed from the edge list) is the device's, of the
    reference's own second product. -/
theorem msgs2_eq : Cert.ReferenceIdeal.Read.val_main_v88 (F := Ideal) x0 x1 x2 x3 x4
    = messages64 (Cert.ReferenceIdeal.Read.val_main_v49 (F := Ideal) x0 x1 x2 x3 x4) (srcOf x1) (dstOf x1) (edgeWeight x1) := rfl

/-- THE REFERENCE'S RESULT, entry by entry, is the network of the six arguments. -/
theorem network_eq : Cert.ReferenceIdeal.Read.val_main_v97 (F := Ideal) x0 x1 x2 x3 x4 x5 = network x0 x1 x2 x3 x4 x5 := by
  funext i
  obtain ⟨r, q, rfl⟩ : ∃ (r : Fin 50000) (q : Fin 64), i = ix2 r q := ⟨i 0, i 1, eq_ix2 i⟩
  rw [Cert.ReferenceIdeal.Read.val_main_v97_apply, Cert.ReferenceIdeal.Read.val_main_v96_apply, Cert.ReferenceIdeal.Read.val_main_v93_apply,
    Cert.ReferenceIdeal.Read.val_main_v92_apply, Cert.ReferenceIdeal.Read.val_main_v91_apply, Cert.ReferenceIdeal.Read.val_main_v90_apply,
    Cert.ReferenceIdeal.Read.val_main_v95_apply, Cert.ReferenceIdeal.Read.val_main_v94_apply,
    Cert.ReferenceIdeal.Read.val_main_call1_v0_apply, Cert.ReferenceIdeal.Read.val_main_call1_cst_apply, msgs2_eq, rows2_eq, self2_eq, layer1_eq]
  unfold network
  rw [nodeCombine_ix2, shapeCast_a_a1_apply, shapeCast_a_1a_apply]
  have e1 : Cert.ReferenceIdeal.Read.idx_main_v90 (Cert.ReferenceIdeal.Read.idx_main_v91 (ix2 r q)) = ix1 r :=
    funext fun a => Fin.ext (by match a with | ⟨0, _⟩ => rfl)
  have e2 : Cert.ReferenceIdeal.Read.idx_main_v94 (Cert.ReferenceIdeal.Read.idx_main_v95 (ix2 r q)) = ix1 q :=
    funext fun a => Fin.ext (by match a with | ⟨0, _⟩ => rfl)
  rw [e1, e2]
  rfl

end Cert.Bridge

end
-- ==== Proof.lean ====
/-
  A two-layer graph convolution on 50000 nodes and 800000 edges, the device program against the host reference, over
  the extended reals.

  Each layer projects every node's feature row by a weight matrix, sends every edge's source row, scaled by the edge's
  weight (the product of the inverse square-root degrees of its two ends), to the edge's target and adds the messages
  up there, and then combines node by node: messages, plus the node's own projected row times the square of its
  factor, plus a bias, rectified at zero. The device program launches the projection and the combination of each layer
  as regions over 25 blocks of 2000 nodes and leaves the gather / scatter-add chain to host operations between them;
  the reference does everything as whole-array host operations and recomputes the graph's quantities per layer.

  Both end at one function of the six arguments (`Boundaries.network`): a blocked product into a zero accumulator is
  the whole product entry by entry (a change of float format is the identity on extended reals); the blocks of the
  combination cover the nodes; the host chains along the edges are the same operations on both sides and are never
  opened; and the two spellings of "the node's weight down its row" and "the bias across the rows" read the same
  entries. Only commutation-free identities are used, so the finiteness of the inputs is never needed.
-/
import proofs.«132799_j34540126994448_1_alg».proof.Defs
import proofs.«132799_j34540126994448_1_alg».proof.Proof.Gen.Kernel
import proofs.«132799_j34540126994448_1_alg».proof.Proof.Gen.Kernel.Skeleton
import proofs.«132799_j34540126994448_1_alg».proof.Proof.Gen.Kernel.Launch
import proofs.«132799_j34540126994448_1_alg».proof.Proof.Gen.Kernel.Points
import proofs.«132799_j34540126994448_1_alg».proof.Proof.Gen.Kernel.Frame
import proofs.«132799_j34540126994448_1_alg».proof.Proof.Gen.KernelIdeal
import proofs.«132799_j34540126994448_1_alg».proof.Proof.Gen.KernelIdeal.Skeleton
import proofs.«132799_j34540126994448_1_alg».proof.Proof.Gen.KernelIdeal.Launch
import proofs.«132799_j34540126994448_1_alg».proof.Proof.Gen.KernelIdeal.Points
import proofs.«132799_j34540126994448_1_alg».proof.Proof.Gen.KernelIdeal.Frame
import proofs.«132799_j34540126994448_1_alg».proof.Proof.Gen.ReferenceIdeal
import proofs.«132799_j34540126994448_1_alg».proof.Proof.Gen.Pre_finite_inputs
import proofs.«132799_j34540126994448_1_alg».proof.Proof.Gen.ReferenceIdeal.Run
import proofs.«132799_j34540126994448_1_alg».proof.Proof.Gen.ReferenceIdeal.Read
import proofs.«132799_j34540126994448_1_alg».proof.Proof.KernelRun
import proofs.«132799_j34540126994448_1_alg».proof.Proof.Boundaries
import proofs.«132799_j34540126994448_1_alg».proof.Proof.ReferenceValue
import Idealize.ShloMosaic.Adequacy
import Idealize.ShloMosaic.Init

noncomputable section

namespace Cert.Proof

open Idealize.ShloMosaic Idealize.ShloMosaic.TcCoe Idealize.SL.Sem

/-- The device program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the network of those arguments in their
    result arrays: the device program by its boundaries read in order, the reference by its operations read entry by entry. -/
theorem algebraic : Cert.algebraic_KernelIdeal_ReferenceIdeal := by
  intro m ρ m' ρ' _ hagree
  refine ⟨fun c => Cert.KernelIdeal.Boundaries.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Boundaries.result m ρ c), (h c).2⟩)
      (Cert.KernelIdeal.Result.run_last m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v97_eq, (hagree c).1, (hagree c).2.1, (hagree c).2.2.1, (hagree c).2.2.2.1,
      (hagree c).2.2.2.2.1, (hagree c).2.2.2.2.2]
    exact Cert.Bridge.network_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
